-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S64x256 : Shape := ⟨2, ![64, 256]⟩
abbrev S64 : Shape := ⟨1, ![64]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x512x128 .f32) (main_arg1 : FVec F S4x512x128 .f32) (main_arg2 : FVec F S64x256 .f32) (main_arg3 : FVec F S64 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x128 .f32 := Host.absf main_arg1
  let main_cst_0 : FVec F S_ .f32 := constant S_ .f32 0x7F800000#32
  let main_v5 : FVec F S4x512x128 .f32 := broadcastInDim S4x512x128 ![] bcast_S_S4x512x128 main_cst_0
  let main_v6 : IVec S4x512x128 1 := cmpf .olt main_v4 main_v5
  let main_c_1 : IVec S_ 1 := constantI S_ 1 1#1
  let main_v7 : IVec S_ 1 := (fun x v => Host.reduce IntOp.andi x v reducesTo_S4x512x128_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x512x128 : Shape := ⟨3, ![4, 512, 128]⟩
abbrev S64x256 : Shape := ⟨2, ![64, 256]⟩
abbrev S64 : Shape := ⟨1, ![64]⟩
abbrev S4x512x512x64 : Shape := ⟨4, ![4, 512, 512, 64]⟩
abbrev S1x128x128 : Shape := ⟨3, ![1, 128, 128]⟩
abbrev S1x128x128x64 : Shape := ⟨4, ![1, 128, 128, 64]⟩
abbrev S128x128 : Shape := ⟨2, ![128, 128]⟩
abbrev S64x128 : Shape := ⟨2, ![64, 128]⟩
abbrev S128x64 : Shape := ⟨2, ![128, 64]⟩
abbrev S128x1x64 : Shape := ⟨3, ![128, 1, 64]⟩
abbrev S1x128x64 : Shape := ⟨3, ![1, 128, 64]⟩
abbrev S128x128x64 : Shape := ⟨3, ![128, 128, 64]⟩
abbrev S1x1x64 : Shape := ⟨3, ![1, 1, 64]⟩

abbrev nBuf : Space → Nat
  | .hbm => 5
  | .vmem => 8
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S64x256, .f32⟩
  | .hbm, ⟨3, _⟩ => ⟨S64, .f32⟩
  | .hbm, ⟨4, _⟩ => ⟨S4x512x512x64, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S64x256, .f32⟩
  | .local _ .vmem, ⟨5, _⟩ => ⟨S64, .f32⟩
  | .local _ .vmem, ⟨6, _⟩ => ⟨S1x128x128x64, .f32⟩
  | .local _ .vmem, ⟨7, _⟩ => ⟨S1x128x128x64, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S64x256_S64x128_0_0 : ∀ a, (![0, 0] : Fin 2 → Nat) a + S64x128.size a ≤ S64x256.size a
  h_S64x128 : 0 < S64x128.numel
  inb_S64x256_S64x128_0_128 : ∀ a, (![0, 128] : Fin 2 → Nat) a + S64x128.size a ≤ S64x256.size a
  inb_S64_S64_0 : ∀ a, (![0] : Fin 1 → Nat) a + S64.size a ≤ S64.size a
  h_S64 : 0 < S64.numel
  transposes_S64x128_p1_0_S128x64 : S64x128.Transposes [1, 0] S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  shapeCasts_S64_S1x1x64 : S64.ShapeCasts S1x1x64
  broadcasts_S1x1x64_S128x128x64 : S1x1x64.Broadcasts S128x128x64
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S128x128x64 : S1x128x128x64.ShapeCasts S128x128x64
  shapeCasts_S128x128x64_S1x128x128x64 : S128x128x64.ShapeCasts S1x128x128x64
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S4x512x128.size a
  hwx0_0 : ∀ i : grid0.Coords, EltTy.bits .f32 = 32 ∨ (Rect.block (s := S4x512x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x512x128.size a
  hwx0_1 : ∀ i : grid0.Coords, EltTy.bits .f32 = 32 ∨ (Rect.block (s := S4x512x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128x64.size a ≤ S4x512x512x64.size a
  hwx0_4 : ∀ i : grid0.Coords, EltTy.bits .f32 = 32 ∨ (Rect.block (s := S4x512x512x64) S1x128x128x64.size (cc0_transform_4 i) (hinb0_4 i)).WholeWords (EltTy.packing .f32)

variable [Facts₀]

def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S64x256 : Shape := ⟨2, ![64, 256]⟩
abbrev S64 : Shape := ⟨1, ![64]⟩
abbrev S64x128 : Shape := ⟨2, ![64, 128]⟩
abbrev S4x512x64 : Shape := ⟨3, ![4, 512, 64]⟩
abbrev S4x512x1x64 : Shape := ⟨4, ![4, 512, 1, 64]⟩
abbrev S4x1x512x64 : Shape := ⟨4, ![4, 1, 512, 64]⟩
abbrev S4x512x512x64 : Shape := ⟨4, ![4, 512, 512, 64]⟩
abbrev S1x1x1x64 : Shape := ⟨4, ![1, 1, 1, 64]⟩

abbrev nBuf : Space → Nat
  | .hbm => 16
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S64x256, .f32⟩
  | .hbm, ⟨3, _⟩ => ⟨S64, .f32⟩
  | .hbm, ⟨4, _⟩ => ⟨S64x128, .f32⟩
  | .hbm, ⟨5, _⟩ => ⟨S64x128, .f32⟩
  | .hbm, ⟨6, _⟩ => ⟨S4x512x64, .f32⟩
  | .hbm, ⟨7, _⟩ => ⟨S4x512x64, .f32⟩
  | .hbm, ⟨8, _⟩ => ⟨S4x512x1x64, .f32⟩
  | .hbm, ⟨9, _⟩ => ⟨S4x1x512x64, .f32⟩
  | .hbm, ⟨10, _⟩ => ⟨S4x512x512x64, .f32⟩
  | .hbm, ⟨11, _⟩ => ⟨S4x512x512x64, .f32⟩
  | .hbm, ⟨12, _⟩ => ⟨S4x512x512x64, .f32⟩
  | .hbm, ⟨13, _⟩ => ⟨S1x1x1x64, .f32⟩
  | .hbm, ⟨14, _⟩ => ⟨S4x512x512x64, .f32⟩
  | .hbm, ⟨15, _⟩ => ⟨S4x512x512x64, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  slices_S64x256_S64x128_0_0 : S64x256.Slices ![0, 0] S64x128
  slices_S64x256_S64x128_0_128 : S64x256.Slices ![0, 128] S64x128
  bcast_S4x512x64_S4x512x1x64_0_1_3 : S4x512x64.BroadcastsInDim S4x512x1x64 (![0, 1, 3] : Fin 3 → Fin S4x512x1x64.rank)
  bcast_S4x512x64_S4x1x512x64_0_2_3 : S4x512x64.BroadcastsInDim S4x1x512x64 (![0, 2, 3] : Fin 3 → Fin S4x1x512x64.rank)
  bcast_S4x512x1x64_S4x512x512x64_0_1_2_3 : S4x512x1x64.BroadcastsInDim S4x512x512x64 (![0, 1, 2, 3] : Fin 4 → Fin S4x512x512x64.rank)
  bcast_S4x1x512x64_S4x512x512x64_0_1_2_3 : S4x1x512x64.BroadcastsInDim S4x512x512x64 (![0, 1, 2, 3] : Fin 4 → Fin S4x512x512x64.rank)
  bcast_S64_S1x1x1x64_3 : S64.BroadcastsInDim S1x1x1x64 (![3] : Fin 1 → Fin S1x1x1x64.rank)
  bcast_S1x1x1x64_S4x512x512x64_0_1_2_3 : S1x1x1x64.BroadcastsInDim S4x512x512x64 (![0, 1, 2, 3] : Fin 4 → Fin S4x512x512x64.rank)
  dot_S4x512x128_S64x128_S4x512x64_2_1_01_0_n_n_wf : DotDims.WF S4x512x128 S64x128 S4x512x64 [2] [1] [0, 1] [0] [] []

variable [Facts₀]

def dot_S4x512x128_S64x128_S4x512x64_2_1_01_0_n_n : DotDims S4x512x128 S64x128 S4x512x64 where
  lhsContracting := [2]
  rhsContracting := [1]
  lhsNonContracting := [0, 1]
  rhsNonContracting := [0]
  lhsBatch := []
  rhsBatch := []
  wf := dot_S4x512x128_S64x128_S4x512x64_2_1_01_0_n_n_wf

class Facts : Prop extends Facts₀ where

variable [Facts]
-- ==== Proof.PairAffine.lean ====
/-
  The pairwise affine map as ONE function of its four argument arrays.

  For a batch `b`, a ligand row `l`, a receptor row `r` and an output feature `o` the value is

      (∑ d, lig[b, l, d] · W[o, d]  +  ∑ d, rec[b, r, d] · W[o, 128 + d])  +  bias[o]

  on the extended reals: the left half of the weight matrix projects the ligand row, the right half the
  receptor row, the two projections are added over the (l, r) pair grid, and the bias is added last. It is
  `Linear (concat (lig[b, l], rec[b, r]))` with the contraction split at the seam of the concatenation.
  Both programs group the three summands this way, so no law beyond reading each side at an index is needed
  (in particular nothing that would ask the entries to be finite).
-/
import Idealize.ShloMosaic.PureOps.Ideal
import Idealize.ShloMosaic.Lib.ValueIdx

noncomputable section

open scoped BigOperators

namespace Cert.PairAffine

open Idealize.ShloMosaic Idealize.ShloMosaic.ValueIdx

/-- Column `d` of the left half of the `64 × 256` weight matrix. -/
abbrev colL (d : Fin 128) : Fin 256 := ⟨d.val, by omega⟩

/-- Column `d` of its right half. -/
abbrev colR (d : Fin 128) : Fin 256 := ⟨128 + d.val, by omega⟩

/-- One row of features projected by one half of the weights: `∑ d, X[b, row, d] · W[o, col d]`. -/
def proj (X : (⟨3, ![4, 512, 128]⟩ : Shape).Idx → EReal) (W : (⟨2, ![64, 256]⟩ : Shape).Idx → EReal)
    (col : Fin 128 → Fin 256) (b : Fin 4) (row : Fin 512) (o : Fin 64) : EReal :=
  ∑ d : Fin 128, X (ix3 b row d) * W (ix2 o (col d))

/-- The whole `4 × 512 × 512 × 64` result: at `(b, l, r, o)` the ligand row's projection plus the receptor
    row's, plus the bias. -/
def pairAffine (lig rec : (⟨3, ![4, 512, 128]⟩ : Shape).Idx → EReal) (W : (⟨2, ![64, 256]⟩ : Shape).Idx → EReal)
    (bias : (⟨1, ![64]⟩ : Shape).Idx → EReal) : (⟨4, ![4, 512, 512, 64]⟩ : Shape).Idx → EReal :=
  fun i => (proj lig W colL (i 0) (i 1) (i 3) + proj rec W colR (i 0) (i 2) (i 3)) + bias (ix1 (i 3))

theorem pairAffine_apply (lig rec : (⟨3, ![4, 512, 128]⟩ : Shape).Idx → EReal) (W : (⟨2, ![64, 256]⟩ : Shape).Idx → EReal)
    (bias : (⟨1, ![64]⟩ : Shape).Idx → EReal) (b : Fin 4) (l r : Fin 512) (o : Fin 64) :
    pairAffine lig rec W bias (ix4 b l r o)
      = (proj lig W colL b l o + proj rec W colR b r o) + bias (ix1 o) := rfl

end Cert.PairAffine

end
-- ==== Proof.RefIsPairAffine.lean ====
/-
  The reference computes the pairwise affine map.

  Its host program slices the weight matrix into its two halves, contracts each feature array with one half
  (`dot_general` over the feature axis), broadcasts the ligand projection along the receptor axis and the
  receptor projection along the ligand axis, adds them, and adds the bias broadcast over everything. Read at
  an index `(b, l, r, o)`, each stage names one element of its operand; composing the stages' index maps
  gives exactly the indices `pairAffine` is written with.
-/
import proofs.«101703_j1597727834177_2_alg».proof.Proof.Gen.ReferenceIdeal.Read
import proofs.«101703_j1597727834177_2_alg».proof.Proof.PairAffine

noncomputable section

open scoped BigOperators

namespace Cert.ReferenceIdeal.RefValue

open Cert.ReferenceIdeal Cert.ReferenceIdeal.Read Idealize.ShloMosaic Idealize.ShloMosaic.ValueIdx Cert.PairAffine

/-- The ligand feature the reference multiplies at `(b, l, r, o)`, step `d` of the contraction. -/
theorem lig_idx (i : S4x512x512x64.Idx) (d : Fin 128) :
    lidx_main_v2 (idx_main_v4 (idx_main_v6 i)) d = ix3 (i 0) (i 1) d :=
  funext fun a => Fin.ext (by match a with | ⟨0, _⟩ => rfl | ⟨1, _⟩ => rfl | ⟨2, _⟩ => rfl)

/-- The weight it multiplies it by: row `o`, column `d` of the left half. -/
theorem wl_idx (i : S4x512x512x64.Idx) (d : Fin 128) :
    idx_main_v0 (ridx_main_v2 (idx_main_v4 (idx_main_v6 i)) d) = ix2 (i 3) (colL d) :=
  funext fun a => Fin.ext (by match a with | ⟨0, _⟩ => rfl | ⟨1, _⟩ => rfl)

/-- The receptor feature, -/
theorem rec_idx (i : S4x512x512x64.Idx) (d : Fin 128) :
    lidx_main_v3 (idx_main_v5 (idx_main_v7 i)) d = ix3 (i 0) (i 2) d :=
  funext fun a => Fin.ext (by match a with | ⟨0, _⟩ => rfl | ⟨1, _⟩ => rfl | ⟨2, _⟩ => rfl)

/-- and its weight: row `o`, column `d` of the right half. -/
theorem wr_idx (i : S4x512x512x64.Idx) (d : Fin 128) :
    idx_main_v1 (ridx_main_v3 (idx_main_v5 (idx_main_v7 i)) d) = ix2 (i 3) (colR d) :=
  funext fun a => Fin.ext (by match a with | ⟨0, _⟩ => rfl | ⟨1, _⟩ => rfl)

/-- The bias entry: feature `o`. -/
theorem bias_idx (i : S4x512x512x64.Idx) : idx_main_v9 (idx_main_v10 i) = ix1 (i 3) :=
  funext fun a => Fin.ext (by match a with | ⟨0, _⟩ => rfl)

/-- The reference's last stage, at the ideal values, is `pairAffine` of the four arguments. -/
theorem ref_eq (x0 x1 : (⟨S4x512x128, .f32⟩ : BufTy).Contents (Elt Ideal)) (x2 : (⟨S64x256, .f32⟩ : BufTy).Contents (Elt Ideal))
    (x3 : (⟨S64, .f32⟩ : BufTy).Contents (Elt Ideal)) :
    val_main_v11 (F := Ideal) x0 x1 x2 x3 = pairAffine x0 x1 x2 x3 := by
  funext i
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, lig_idx, wl_idx, rec_idx, wr_idx, bias_idx]
  rfl

end Cert.ReferenceIdeal.RefValue

end
-- ==== Proof.BodyAt.lean ====
/-
  One grid step of the kernel, read at an index.

  A step holds a `128 × 128` tile of ligand rows, a `128 × 128` tile of receptor rows, the two `64 × 128`
  halves of the weight matrix and the bias. It multiplies each tile by the transpose of its half, lays the
  ligand product along a new middle axis and the receptor product along a new leading axis, broadcasts both
  to `128 × 128 × 64`, adds them, and adds the bias broadcast from `1 × 1 × 64`. At `(p, q, o)` of the tile
  that is

      (∑ d, ligTile[p, d] · Wl[o, d]  +  ∑ d, recTile[q, d] · Wr[o, d])  +  bias[o].

  Each re-laying operation names ONE element of its operand; the lemmas below say which, at the literal shapes
  of this kernel, and `tile_apply` chains them. Narrowing to bf16 before the products is the identity on the
  extended reals, and the product into a zero accumulator is the plain sum.
-/
import proofs.«101703_j1597727834177_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

section Layout
variable {α : Type}

/-- A `128 × 64` product laid as `128 × 1 × 64`: entry `(p, ·, o)` is entry `(p, o)`. -/
theorem cast_mid (v : S128x64.Idx → α) (h : S128x64.ShapeCasts S128x1x64) (p : Fin 128) (u : Fin 1) (o : Fin 64) :
    shapeCast S128x1x64 v h (ix3 p u o) = v (ix2 p o) :=
  shapeCast_apply v h _ _ (by
    have hu : u.val = 0 := by omega
    rw [Shape.rowMajor_val_two, Shape.rowMajor_val_three]
    show p.val * 64 + o.val = (p.val * 1 + u.val) * 64 + o.val
    rw [hu]; omega)

/-- The bias laid as `1 × 1 × 64`: entry `(·, ·, o)` is entry `o`. -/
theorem cast_bias (v : S64.Idx → α) (h : S64.ShapeCasts S1x1x64) (u u' : Fin 1) (o : Fin 64) :
    shapeCast S1x1x64 v h (ix3 u u' o) = v (ix1 o) :=
  shapeCast_apply v h _ _ (by
    have hu : u.val = 0 := by omega
    have hu' : u'.val = 0 := by omega
    rw [Shape.rowMajor_val_one, Shape.rowMajor_val_three]
    show o.val = (u.val * 1 + u'.val) * 64 + o.val
    rw [hu, hu']; omega)

/-- `128 × 1 × 64` broadcast along its middle axis: `(p, q, o)` reads `(p, 0, o)`. -/
theorem bcast_mid (v : S128x1x64.Idx → α) (h : S128x1x64.Broadcasts S128x128x64) (p q : Fin 128) (o : Fin 64) :
    broadcastTo S128x128x64 v h (ix3 p q o) = v (ix3 p (0 : Fin 1) o) :=
  broadcastTo_apply v h _ _ (fun a => match a with
    | ⟨0, _⟩ => by show p.val = if (128 : Nat) = 1 then 0 else p.val; rw [if_neg (by decide)]
    | ⟨1, _⟩ => by show 0 = if (1 : Nat) = 1 then 0 else q.val; rw [if_pos rfl]
    | ⟨2, _⟩ => by show o.val = if (64 : Nat) = 1 then 0 else o.val; rw [if_neg (by decide)])

/-- `1 × 128 × 64` broadcast along its leading axis: `(p, q, o)` reads `(0, q, o)`. -/
theorem bcast_lead (v : S1x128x64.Idx → α) (h : S1x128x64.Broadcasts S128x128x64) (p q : Fin 128) (o : Fin 64) :
    broadcastTo S128x128x64 v h (ix3 p q o) = v (ix3 (0 : Fin 1) q o) :=
  broadcastTo_apply v h _ _ (fun a => match a with
    | ⟨0, _⟩ => by show 0 = if (1 : Nat) = 1 then 0 else p.val; rw [if_pos rfl]
    | ⟨1, _⟩ => by show q.val = if (128 : Nat) = 1 then 0 else q.val; rw [if_neg (by decide)]
    | ⟨2, _⟩ => by show o.val = if (64 : Nat) = 1 then 0 else o.val; rw [if_neg (by decide)])

/-- `1 × 1 × 64` broadcast along both leading axes: `(p, q, o)` reads `(0, 0, o)`. -/
theorem bcast_bias (v : S1x1x64.Idx → α) (h : S1x1x64.Broadcasts S128x128x64) (p q : Fin 128) (o : Fin 64) :
    broadcastTo S128x128x64 v h (ix3 p q o) = v (ix3 (0 : Fin 1) (0 : Fin 1) o) :=
  broadcastTo_apply v h _ _ (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show o.val = if (64 : Nat) = 1 then 0 else o.val; rw [if_neg (by decide)])

end Layout

/-! ## The product of a tile with the transpose of a half of the weights -/

local notation "D" => dot_S128x128_S128x64_S128x64_1_0_0_1_n_n

theorem lhs_row (j : S128x64.Idx) (q : (D).contr.Idx) : ((D).lhsIdx j q 0).val = (j 0).val := by
  unfold DotDims.lhsIdx
  rw [dif_neg (show ¬(0 : Fin S128x128.rank) ∈ (D).lhsBatch by decide), dif_pos (show (0 : Fin S128x128.rank) ∈ (D).lhsNonContracting by decide)]
  rfl
theorem lhs_contr (j : S128x64.Idx) (q : (D).contr.Idx) : ((D).lhsIdx j q 1).val = (q ⟨0, by decide⟩).val :=
  (D).lhsIdx_val_of_single rfl j q
theorem rhs_contr (j : S128x64.Idx) (q : (D).contr.Idx) : ((D).rhsIdx j q 0).val = (q ⟨0, by decide⟩).val :=
  (D).rhsIdx_val_of_single rfl j q
theorem rhs_col (j : S128x64.Idx) (q : (D).contr.Idx) : ((D).rhsIdx j q 1).val = (j 1).val := by
  unfold DotDims.rhsIdx
  rw [dif_neg (show ¬(1 : Fin S128x64.rank) ∈ (D).rhsBatch by decide), dif_pos (show (1 : Fin S128x64.rank) ∈ (D).rhsNonContracting by decide)]
  rfl

/-- A `128 × 128` tile times the transpose of a `64 × 128` half, into a zero accumulator: at `(p, o)` the sum
    over the feature axis of `tile[p, d] · half[o, d]`. -/
theorem tile_proj (x : FVec Ideal S128x128 .bf16) (w : FVec Ideal S64x128 .bf16) (ht : S64x128.Transposes [1, 0] S128x64)
    (p : Fin 128) (o : Fin 64) :
    matmul (D) none x (transpose S128x64 [1, 0] w ht) (constant S128x64 .f32 0x00000000#32) (ix2 p o)
      = ∑ d : Fin 128, x (ix2 p d) * w (ix2 o d) := by
  simp only [matmul]
  rw [Ideal.matmul_constant_zero_apply, ← Equiv.sum_comp (contrEquiv1 (D) 128 rfl rfl).symm]
  refine Finset.sum_congr rfl fun d _ => ?_
  have hd := contrEquiv1_symm_val (D) 128 rfl rfl d
  have el : (D).lhsIdx (ix2 p o) ((contrEquiv1 (D) 128 rfl rfl).symm d) = ix2 p d := funext fun a => Fin.ext (by
    match a with
    | ⟨0, _⟩ => exact lhs_row _ _
    | ⟨1, _⟩ => exact (lhs_contr _ _).trans hd)
  have er : (D).rhsIdx (ix2 p o) ((contrEquiv1 (D) 128 rfl rfl).symm d) = ix2 d o := funext fun a => Fin.ext (by
    match a with
    | ⟨0, _⟩ => exact (rhs_contr _ _).trans hd
    | ⟨1, _⟩ => exact rhs_col _ _)
  rw [el, er, transpose_ix2_apply]

/-! ## The whole step -/

/-- What a grid step stores, at `(·, p, q, o)` of its `1 × 128 × 128 × 64` block, from the five vectors it loads:
    the ligand tile's row `p` projected by the left half, plus the receptor tile's row `q` projected by the
    right half, plus bias `o`. -/
theorem tile_apply (lig rec : Vec Ideal S1x128x128 .f32) (wl wr : Vec Ideal S64x128 .f32) (bias : Vec Ideal S64 .f32)
    (u : Fin 1) (p q : Fin 128) (o : Fin 64) :
    k0_pay1 (F := Ideal) lig rec wl wr bias (ix4 u p q o)
      = (∑ d : Fin 128, lig (ix3 (0 : Fin 1) p d) * wl (ix2 o d) + ∑ d : Fin 128, rec (ix3 (0 : Fin 1) q d) * wr (ix2 o d))
          + bias (ix1 o) := by
  unfold k0_pay1
  refine (shapeCast_abc_1abc_apply _ _ u p q o).trans ?_
  simp only [addf_apply]
  rw [bcast_mid, bcast_lead, bcast_bias, cast_mid, shapeCast_ab_1ab_apply, cast_bias, tile_proj, tile_proj]
  simp only [truncf_apply, shapeCast_1ab_ab_apply]

end Cert.KernelIdeal.Body

end
-- ==== Proof.TileIsPairAffine.lean ====
/-
  A grid step's tile is a tile of the pairwise affine map.

  Suppose the step's ligand tile holds rows `128·L … 128·L + 127` of batch `B` of the ligand array, its receptor
  tile rows `128·R … 128·R + 127` of batch `B` of the receptor array, its two weight vectors the left and right
  halves of the weight matrix, and its bias vector the bias. Then what it stores at `(·, p, q, o)` is
  `pairAffine` of the four arrays at `(B, 128·L + p, 128·R + q, o)`: both are the two row projections added,
  plus the bias, term by term.
-/
import proofs.«101703_j1597727834177_2_alg».proof.Proof.BodyAt
import proofs.«101703_j1597727834177_2_alg».proof.Proof.PairAffine

noncomputable section

open scoped BigOperators

namespace Cert.KernelIdeal.Body

open Cert.KernelIdeal Cert.KernelIdeal.Gen Idealize.ShloMosaic Idealize.ShloMosaic.ValueIdx Cert.PairAffine

theorem tile_eq (A0 A1 : S4x512x128.Idx → EReal) (A2 : S64x256.Idx → EReal) (A3 : S64.Idx → EReal)
    (lig rec : Vec Ideal S1x128x128 .f32) (wl wr : Vec Ideal S64x128 .f32) (bias : Vec Ideal S64 .f32)
    (B L R : ℕ)
    (hlig : ∀ (p d : Fin 128) (b : Fin 4) (l : Fin 512), b.val = B → l.val = L * 128 + p.val →
      lig (ix3 (0 : Fin 1) p d) = A0 (ix3 b l d))
    (hrec : ∀ (q d : Fin 128) (b : Fin 4) (r : Fin 512), b.val = B → r.val = R * 128 + q.val →
      rec (ix3 (0 : Fin 1) q d) = A1 (ix3 b r d))
    (hwl : ∀ (o : Fin 64) (d : Fin 128), wl (ix2 o d) = A2 (ix2 o (colL d)))
    (hwr : ∀ (o : Fin 64) (d : Fin 128), wr (ix2 o d) = A2 (ix2 o (colR d)))
    (hbias : ∀ o : Fin 64, bias (ix1 o) = A3 (ix1 o))
    (y : S1x128x128x64.Idx) (i : S4x512x512x64.Idx)
    (hi0 : (i 0).val = B) (hi1 : (i 1).val = L * 128 + (y 1).val) (hi2 : (i 2).val = R * 128 + (y 2).val)
    (hi3 : (i 3).val = (y 3).val) :
    k0_pay1 (F := Ideal) lig rec wl wr bias y = pairAffine A0 A1 A2 A3 i := by
  obtain ⟨u, p, q, o, rfl⟩ : ∃ (u : Fin 1) (p q : Fin 128) (o : Fin 64), y = ix4 u p q o :=
    ⟨y 0, y 1, y 2, y 3, eq_ix4 y⟩
  obtain ⟨b, l, r, o', rfl⟩ : ∃ (b : Fin 4) (l r : Fin 512) (o' : Fin 64), i = ix4 b l r o' :=
    ⟨i 0, i 1, i 2, i 3, eq_ix4 i⟩
  obtain rfl : o' = o := Fin.ext hi3
  rw [tile_apply, pairAffine_apply]
  unfold proj
  simp only [hlig _ _ b l hi0 hi1, hrec _ _ b r hi0 hi2, hwl, hwr, hbias]

end Cert.KernelIdeal.Body

end
-- ==== Proof.KernelIsPairAffine.lean ====
/-
  The kernel computes the pairwise affine map.

  The grid has `4 × 4 × 4` points `(B, L, R)`: a batch, a tile of 128 ligand rows and a tile of 128 receptor rows.
  At a point the ligand window holds rows `128·L …` of batch `B`, the receptor window rows `128·R …` of batch
  `B`, the weight and bias windows the whole weight matrix and bias (the body cuts the weight matrix into its
  two halves itself), and the output window is block `(B, L, R, 0)` of the `4 × 512 × 512 × 64` result, of
  size `1 × 128 × 128 × 64`. So what a point writes back is its block of `pairAffine` of the four argument
  arrays (`tile_eq`); the 64 blocks tile the result, each index lying in the block of the point
  `(i₀, i₁ / 128, i₂ / 128)`; hence the result array ends holding `pairAffine` of the arguments.
-/
import proofs.«101703_j1597727834177_2_alg».proof.Proof.Gen.KernelIdeal.Value
import proofs.«101703_j1597727834177_2_alg».proof.Proof.TileIsPairAffine
import Idealize.ShloMosaic.Lib.Pipeline.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Body
open Idealize.ShloMosaic.ValueIdx Cert.PairAffine

variable (m : (ℓ : Loc nD τ sig) → Buf (Elt Ideal) ℓ) (ρ : Dev nD → PrngReg)

theorem zeros1 : (![0] : Fin 1 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The block indices at a grid point, decided over the 64 points: the ligand window follows the output's batch
    and ligand-tile coordinates, the receptor window its batch and receptor-tile coordinates, the weight and
    bias windows stay at block zero, and the output's block coordinates are below 4 with feature block 0. -/
theorem block_indices : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = win0_4.index t (2 : Fin 4)
    ∧ win0_1.index t (2 : Fin 3) = 0
    ∧ win0_2.index t (0 : Fin 2) = 0 ∧ win0_2.index t (1 : Fin 2) = 0
    ∧ win0_3.index t (0 : Fin 1) = 0
    ∧ win0_4.index t (0 : Fin 4) < 4 ∧ win0_4.index t (1 : Fin 4) < 4 ∧ win0_4.index t (2 : Fin 4) < 4
    ∧ win0_4.index t (3 : Fin 4) = 0 :=
  (by decide +kernel : ∀ t : Fin grid0.N, _)

/-- Every `(batch, ligand tile, receptor tile)` is some point's output block. -/
theorem block_onto : ∀ (q0 q1 q2 : Fin 4), ∃ t : Fin cfg0.N, win0_4.index t = ![q0.val, q1.val, q2.val, 0] :=
  (by decide +kernel : ∀ (q0 q1 q2 : Fin 4), ∃ t : Fin grid0.N, win0_4.index t = ![q0.val, q1.val, q2.val, 0])

/-! ## The input windows' blocks at a point, as entries of the argument arrays -/

theorem lig_block (c : Dev nD) (t : Fin cfg0.N) (p d : Fin 128) (b : Fin 4) (l : Fin 512)
    (hb : b.val = win0_4.index t (0 : Fin 4)) (hl : l.val = win0_4.index t (1 : Fin 4) * 128 + p.val) :
    (iblk m c 0 t : Vec Ideal S1x128x128 .f32) (ix3 (0 : Fin 1) p d)
      = (m ((c : Thread nD τ).loc main_arg0) : S4x512x128.Idx → EReal) (ix3 b l d) := by
  obtain ⟨e0, e1, e2, -⟩ := block_indices t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = b.val; omega
  | ⟨1, _⟩ => show win0_0.index t (1 : Fin 3) * 128 + 1 * p.val = l.val; omega
  | ⟨2, _⟩ => show win0_0.index t (2 : Fin 3) * 128 + 1 * d.val = d.val; omega

theorem rec_block (c : Dev nD) (t : Fin cfg0.N) (q d : Fin 128) (b : Fin 4) (r : Fin 512)
    (hb : b.val = win0_4.index t (0 : Fin 4)) (hr : r.val = win0_4.index t (2 : Fin 4) * 128 + q.val) :
    (iblk m c 1 t : Vec Ideal S1x128x128 .f32) (ix3 (0 : Fin 1) q d)
      = (m ((c : Thread nD τ).loc main_arg1) : S4x512x128.Idx → EReal) (ix3 b r d) := by
  obtain ⟨-, -, -, e0, e1, e2, -⟩ := block_indices t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = b.val; omega
  | ⟨1, _⟩ => show win0_1.index t (1 : Fin 3) * 128 + 1 * q.val = r.val; omega
  | ⟨2, _⟩ => show win0_1.index t (2 : Fin 3) * 128 + 1 * d.val = d.val; omega

/-- The weight window holds the whole weight matrix; the body's first load is its left half, -/
theorem wl_block (c : Dev nD) (t : Fin cfg0.N) (o : Fin 64) (d : Fin 128) :
    (View.ld (iblk m c 2 t : Vec Ideal S64x256 .f32) r0_1 : Vec Ideal S64x128 .f32) (ix2 o d)
      = (m ((c : Thread nD τ).loc main_arg2) : S64x256.Idx → EReal) (ix2 o (colL d)) := by
  obtain ⟨-, -, -, -, -, -, e0, e1, -⟩ := block_indices t
  unfold View.ld iblk
  rw [View.read_apply]
  show V m c main_arg2 _ = m (c.tc.loc main_arg2) _
  unfold V
  congr 1
  funext a
  apply Fin.ext
  match a with
  | ⟨0, _⟩ => show win0_2.index t (0 : Fin 2) * 64 + 1 * (0 + 1 * o.val) = o.val; omega
  | ⟨1, _⟩ => show win0_2.index t (1 : Fin 2) * 256 + 1 * (0 + 1 * d.val) = d.val; omega

/-- its second load the right half. -/
theorem wr_block (c : Dev nD) (t : Fin cfg0.N) (o : Fin 64) (d : Fin 128) :
    (View.ld (iblk m c 2 t : Vec Ideal S64x256 .f32) r0_2 : Vec Ideal S64x128 .f32) (ix2 o d)
      = (m ((c : Thread nD τ).loc main_arg2) : S64x256.Idx → EReal) (ix2 o (colR d)) := by
  obtain ⟨-, -, -, -, -, -, e0, e1, -⟩ := block_indices t
  unfold View.ld iblk
  rw [View.read_apply]
  show V m c main_arg2 _ = m (c.tc.loc main_arg2) _
  unfold V
  congr 1
  funext a
  apply Fin.ext
  match a with
  | ⟨0, _⟩ => show win0_2.index t (0 : Fin 2) * 64 + 1 * (0 + 1 * o.val) = o.val; omega
  | ⟨1, _⟩ => show win0_2.index t (1 : Fin 2) * 256 + 1 * (128 + 1 * d.val) = 128 + d.val; omega

/-- The bias window holds the whole bias. -/
theorem bias_block (c : Dev nD) (t : Fin cfg0.N) (o : Fin 64) :
    (iblk m c 3 t : Vec Ideal S64 .f32) (ix1 o) = (m ((c : Thread nD τ).loc main_arg3) : S64.Idx → EReal) (ix1 o) := by
  obtain ⟨-, -, -, -, -, -, -, -, e0, -⟩ := block_indices t
  unfold iblk
  rw [View.read_apply]
  show V m c main_arg3 _ = m (c.tc.loc main_arg3) _
  unfold V
  congr 1
  funext a
  apply Fin.ext
  match a with
  | ⟨0, _⟩ => show win0_3.index t (0 : Fin 1) * 64 + 1 * o.val = o.val; omega

/-! ## The result array -/

/-- What the result array ends holding: the pairwise affine map of the four arguments as launched. -/
abbrev result (c : Dev nD) : Buf (Elt Ideal) ((c : Thread nD τ).loc main_v0) :=
  pairAffine (m ((c : Thread nD τ).loc main_arg0)) (m ((c : Thread nD τ).loc main_arg1))
    (m ((c : Thread nD τ).loc main_arg2)) (m ((c : Thread nD τ).loc main_arg3))

/-- What point `t` writes back is its block of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zeros4]
  simp only [View.ld_unit_zero (S := S1x128x128) zeros3, View.ld_unit_zero (S := S64) zeros1]
  funext y
  rw [View.read_apply]
  refine tile_eq (m ((c : Thread nD τ).loc main_arg0)) (m ((c : Thread nD τ).loc main_arg1))
    (m ((c : Thread nD τ).loc main_arg2)) (m ((c : Thread nD τ).loc main_arg3))
    (iblk m c 0 t) (iblk m c 1 t) (View.ld (iblk m c 2 t) r0_1) (View.ld (iblk m c 2 t) r0_2) (iblk m c 3 t)
    (win0_4.index t (0 : Fin 4)) (win0_4.index t (1 : Fin 4)) (win0_4.index t (2 : Fin 4))
    (fun p d b l hb hl => lig_block m c t p d b l hb hl) (fun q d b r hb hr => rec_block m c t q d b r hb hr)
    (fun o d => wl_block m c t o d) (fun o d => wr_block m c t o d) (fun o => bias_block m c t o)
    y (((cfg0.win 4).blk t).view.emb y) ?_ ?_ ?_ ?_
  · show win0_4.index t (0 : Fin 4) * 1 + 1 * (y 0).val = win0_4.index t (0 : Fin 4)
    have h : (y 0).val < 1 := (y 0).isLt
    omega
  · show win0_4.index t (1 : Fin 4) * 128 + 1 * (y 1).val = win0_4.index t (1 : Fin 4) * 128 + (y 1).val
    omega
  · show win0_4.index t (2 : Fin 4) * 128 + 1 * (y 2).val = win0_4.index t (2 : Fin 4) * 128 + (y 2).val
    omega
  · obtain ⟨-, -, -, -, -, -, -, -, -, -, -, -, e3⟩ := block_indices t
    show win0_4.index t (3 : Fin 4) * 64 + 1 * (y 3).val = (y 3).val
    omega

/-- An index of the result lies in point `t`'s block iff each coordinate is in the block's range on its axis. -/
theorem mem_block (t : Fin cfg0.N) (i : S4x512x512x64.Idx) :
    i ∈ ((cfg0.win 4).blk t).view.set ↔ ∀ a : Fin 4, win0_4.index t a * S1x128x128x64.size a ≤ (i a).val
      ∧ (i a).val < win0_4.index t a * S1x128x128x64.size a + S1x128x128x64.size a := by
  show i ∈ ((View.whole main_v0).slice (win0_4.rect t)).set ↔ _
  rw [View.set_slice_whole, Rect.mem_set_unit]
  exact Iff.rfl

/-- The 64 blocks cover the result: index `(i₀, i₁, i₂, i₃)` is in the block of the point with batch `i₀`,
    ligand tile `i₁ / 128` and receptor tile `i₂ / 128`. -/
theorem cover (i : S4x512x512x64.Idx) :
    ∃ t : Fin cfg0.N, (cfg0.win 4).flush t = true ∧ i ∈ ((cfg0.win 4).blk t).view.set := by
  have hi0 : (i 0).val < 4 := (i 0).isLt
  have hi1 : (i 1).val < 512 := (i 1).isLt
  have hi2 : (i 2).val < 512 := (i 2).isLt
  have hi3 : (i 3).val < 64 := (i 3).isLt
  obtain ⟨t, ht⟩ := block_onto ⟨(i 0).val, hi0⟩ ⟨(i 1).val / 128, by omega⟩ ⟨(i 2).val / 128, by omega⟩
  have q0 : win0_4.index t (0 : Fin 4) = (i 0).val := congrFun ht 0
  have q1 : win0_4.index t (1 : Fin 4) = (i 1).val / 128 := congrFun ht 1
  have q2 : win0_4.index t (2 : Fin 4) = (i 2).val / 128 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 128 ≤ (i 2).val ∧ (i 2).val < win0_4.index t (2 : Fin 4) * 128 + 128; omega
  | ⟨3, _⟩ => show win0_4.index t (3 : Fin 4) * 64 ≤ (i 3).val ∧ (i 3).val < win0_4.index t (3 : Fin 4) * 64 + 64; omega

/-- So the result array ends holding `result`. -/
theorem final (c : Dev nD) : (dats m 0 c).arrAt 4 cfg0.N = result m c :=
  (dats m 0 c).arrAt_eq_of_cover 4 (result m c) (fun t _ => flushed_eq m c t) cover

/-- The kernel's run, read: every weakly fair execution terminates with the result array at the pairwise affine map
    of the arguments and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Whole

end
-- ==== Proof.lean ====
/-
  A linear layer over the concatenation of a ligand row and a receptor row, for every pair of rows.

  The kernel receives ligand features `[4, 512, 128]`, receptor features `[4, 512, 128]`, a weight matrix
  `[64, 256]` and a bias `[64]`, and writes the `[4, 512, 512, 64]` array whose entry `(b, l, r, o)` is
  `W[o, :] · concat (lig[b, l, :], rec[b, r, :]) + bias[o]`. Splitting the contraction at the seam of the
  concatenation, that is

      (∑ d, lig[b, l, d] · W[o, d]  +  ∑ d, rec[b, r, d] · W[o, 128 + d])  +  bias[o]          (`pairAffine`).

  The kernel walks a `4 × 4 × 4` grid of (batch, ligand tile, receptor tile), multiplies each `128 × 128` tile by
  the transpose of its half of the weights, and adds the two products over the tile's pair grid before the
  bias; on the extended reals its narrowing of the factors is the identity and each product is the exact sum.
  The reference takes the two halves as slices, contracts each whole feature array with its half, and
  broadcasts and adds in the same order. So both result arrays are `pairAffine` of the arguments, index by
  index: `Cert.KernelIdeal.Whole.run` on the kernel's side, `Cert.ReferenceIdeal.RefValue.ref_eq` on the
  reference's. The three summands are grouped identically in both, so no law of the extended reals beyond
  reading each side at an index is used, and the finiteness of the inputs is never opened.

  The three frames are the programs' runs with the result dropped; the idealization rewrote no operation, so
  what it preserves is trivially so.
-/
import proofs.«101703_j1597727834177_2_alg».proof.Defs
import proofs.«101703_j1597727834177_2_alg».proof.Proof.Gen.Kernel
import proofs.«101703_j1597727834177_2_alg».proof.Proof.Gen.Kernel.Skeleton
import proofs.«101703_j1597727834177_2_alg».proof.Proof.Gen.Kernel.Launch
import proofs.«101703_j1597727834177_2_alg».proof.Proof.Gen.Kernel.Points
import proofs.«101703_j1597727834177_2_alg».proof.Proof.Gen.Kernel.Frame
import proofs.«101703_j1597727834177_2_alg».proof.Proof.Gen.KernelIdeal
import proofs.«101703_j1597727834177_2_alg».proof.Proof.Gen.KernelIdeal.Skeleton
import proofs.«101703_j1597727834177_2_alg».proof.Proof.Gen.KernelIdeal.Launch
import proofs.«101703_j1597727834177_2_alg».proof.Proof.Gen.KernelIdeal.Points
import proofs.«101703_j1597727834177_2_alg».proof.Proof.Gen.KernelIdeal.Frame
import proofs.«101703_j1597727834177_2_alg».proof.Proof.Gen.ReferenceIdeal
import proofs.«101703_j1597727834177_2_alg».proof.Proof.Gen.Pre_finite_inputs
import proofs.«101703_j1597727834177_2_alg».proof.Proof.Gen.KernelIdeal.Value
import proofs.«101703_j1597727834177_2_alg».proof.Proof.Gen.ReferenceIdeal.Run
import proofs.«101703_j1597727834177_2_alg».proof.Proof.Gen.ReferenceIdeal.Read
import proofs.«101703_j1597727834177_2_alg».proof.Proof.RefIsPairAffine
import proofs.«101703_j1597727834177_2_alg».proof.Proof.KernelIsPairAffine
import Idealize.ShloMosaic.Adequacy
import Idealize.ShloMosaic.Init

noncomputable section

namespace Cert.Proof

open Idealize.ShloMosaic Idealize.ShloMosaic.TcCoe Idealize.SL.Sem

/-- The kernel as printed runs to the end, nothing faulting, its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From arguments that agree, the kernel's result array ends at `pairAffine` of its arguments and the reference's
    at its last stage, which is `pairAffine` of the reference's arguments: the same array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
